-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) (main_arg1 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S16x1024x1024 : Shape := ⟨3, ![16, 1024, 1024]⟩
abbrev S16x1024x2048 : Shape := ⟨3, ![16, 1024, 2048]⟩
abbrev S1x512x1024 : Shape := ⟨3, ![1, 512, 1024]⟩
abbrev S1x1024x1024 : Shape := ⟨3, ![1, 1024, 1024]⟩
abbrev S1x512x2048 : Shape := ⟨3, ![1, 512, 2048]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x2048, .f32⟩
  | .local _ .vmem, ⟨5, _⟩ => ⟨S1x512x2048, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  inb_S1x512x2048_S1x512x1024_0_0_0 : ∀ a, (![0, 0, 0] : Fin 3 → Nat) a + S1x512x1024.size a ≤ S1x512x2048.size a
  shapeCasts_S512x1024_S1x512x1024 : S512x1024.ShapeCasts S1x512x1024
  inb_S1x512x2048_S1x512x1024_0_0_1024 : ∀ a, (![0, 0, 1024] : Fin 3 → Nat) a + S1x512x1024.size a ≤ S1x512x2048.size a
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x1024x2048.size a
  hwx0_2 : ∀ i : grid0.Coords, EltTy.bits .f32 = 32 ∨ (Rect.block (s := S16x1024x2048) S1x512x2048.size (cc0_transform_2 i) (hinb0_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S_ : Shape := ⟨0, ![]⟩
abbrev S16x1024 : Shape := ⟨2, ![16, 1024]⟩
abbrev S16x1x1024 : Shape := ⟨3, ![16, 1, 1024]⟩
abbrev S16x1024x2048 : Shape := ⟨3, ![16, 1024, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S_, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S16x1x1024, .f32⟩
  | .hbm, ⟨9, _⟩ => ⟨S16x1024x1024, .f32⟩
  | .hbm, ⟨10, _⟩ => ⟨S16x1024x1024, .f32⟩
  | .hbm, ⟨11, _⟩ => ⟨S16x1024x1024, .f32⟩
  | .hbm, ⟨12, _⟩ => ⟨S_, .f32⟩
  | .hbm, ⟨13, _⟩ => ⟨S16x1024, .f32⟩
  | .hbm, ⟨14, _⟩ => ⟨S16x1x1024, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S16x1024x2048, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S16x1024x1024_S16x1024_d1 : S16x1024x1024.ReducesTo [1] S16x1024
  h_S_ : 0 < S_.numel
  bcast_S_S16x1024 : S_.BroadcastsInDim S16x1024 (![] : Fin 0 → Fin S16x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  concatenates_S16x1024x1024_S16x1024x1024_S16x1024x2048_d2 : Shape.Concatenates [S16x1024x1024, S16x1024x1024] S16x1024x2048 2
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_1_1_2_2_0_0_wf : DotDims.WF S16x1024x1024 S16x1024x1024 S16x1024x1024 [1] [1] [2] [2] [0] [0]

variable [Facts₀]

def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_1_1_2_2_0_0 : DotDims S16x1024x1024 S16x1024x1024 S16x1024x1024 where
  lhsContracting := [1]
  rhsContracting := [1]
  lhsNonContracting := [2]
  rhsNonContracting := [2]
  lhsBatch := [0]
  rhsBatch := [0]
  wf := dot_S16x1024x1024_S16x1024x1024_S16x1024x1024_1_1_2_2_0_0_wf

class Facts : Prop extends Facts₀ where

variable [Facts]
-- ==== Proof.Spec.lean ====
/-
  Dot-product attention with the keys doubling as values, on the extended reals, as ONE function of the two
  argument arrays.

  For a query row `q` (1024 entries) and a table `K` of 1024 key rows, the score of key `e` is
  `σ e = Σ_c q c · K e c`; the softmax over the keys subtracts the running maximum `M = max_e σ e` (started
  from the word of −∞), takes `w e = exp (σ e − M)`, the normaliser `Z = Σ_e w e` and the probabilities
  `p e = w e / Z`; the context vector is `ctx d = Σ_e p e · K e d`.

  The result array [16, 1024, 2048] holds, in row (b, t), the decoder row itself in columns 0 … 1023 and, in
  columns 1024 … 2047, the context vector of the decoder row `dec[b, t, ·]` against the encoder rows
  `enc[b, ·, ·]`.  A block of 512 decoder rows of one batch entry, computed from that block and the batch
  entry's encoder rows alone, is the restriction of this function: `blkAt_eq_outAt`.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The value of the f32 word of −∞, kept as the word: both programs start their running maximum from it. -/
abbrev negInf : EReal := Ideal.ofBits .f32 0xFF800000#32

/-- The scores of one query row against the key rows: `σ e = Σ_c q c · K e c`. -/
def score (q : Fin 1024 → EReal) (K : Fin 1024 → Fin 1024 → EReal) (e : Fin 1024) : EReal :=
  ∑ c : Fin 1024, q c * K e c

/-- The maximum of a row of scores, folded from −∞. -/
def smMax (σ : Fin 1024 → EReal) : EReal := (Finset.univ : Finset (Fin 1024)).fold max negInf σ

/-- The unnormalised softmax weight `exp (σ e − max σ)`. -/
def smWeight (σ : Fin 1024 → EReal) (e : Fin 1024) : EReal := Ideal.exp (σ e - smMax σ)

/-- The normaliser: the sum of the weights. -/
def smNorm (σ : Fin 1024 → EReal) : EReal := ∑ e : Fin 1024, smWeight σ e

/-- The softmax probability of key `e`. -/
def smProb (σ : Fin 1024 → EReal) (e : Fin 1024) : EReal := Ideal.div (smWeight σ e) (smNorm σ)

/-- The context vector: the probabilities' weighted sum of the key rows. -/
def context (q : Fin 1024 → EReal) (K : Fin 1024 → Fin 1024 → EReal) (d : Fin 1024) : EReal :=
  ∑ e : Fin 1024, smProb (score q K) e * K e d

/-- An argument array, [16, 1024, 1024]. -/
abbrev Arr : Type := (⟨3, ![16, 1024, 1024]⟩ : Shape).Idx → EReal
/-- The result array, [16, 1024, 2048]. -/
abbrev Out : Type := (⟨3, ![16, 1024, 2048]⟩ : Shape).Idx → EReal
/-- A block of 512 decoder rows of one batch entry. -/
abbrev QBlk : Type := (⟨3, ![1, 512, 1024]⟩ : Shape).Idx → EReal
/-- One batch entry's encoder rows. -/
abbrev KBlk : Type := (⟨3, ![1, 1024, 1024]⟩ : Shape).Idx → EReal

/-- The result at batch entry `b`, decoder position `t`, column `col`: the decoder row in the left half, its
    context vector against the batch entry's encoder rows in the right half. -/
def outAt (enc dec : Arr) (b : Fin 16) (t : Fin 1024) (col : Fin 2048) : EReal :=
  if h : col.val < 1024 then dec (ix3 b t ⟨col.val, h⟩)
  else context (fun c => dec (ix3 b t c)) (fun e c => enc (ix3 b e c))
    ⟨col.val - 1024, by have := col.isLt; omega⟩

/-- The whole result array as one function of the two argument arrays. -/
def G (enc dec : Arr) : Out := fun i =>
  outAt enc dec ⟨(i 0).val, (i 0).isLt⟩ ⟨(i 1).val, (i 1).isLt⟩ ⟨(i 2).val, (i 2).isLt⟩

/-- The same computed inside one block: row `r` of a block of decoder rows `x0` against the encoder rows `x1`. -/
def blkAt (x0 : QBlk) (x1 : KBlk) (r : Fin 512) (col : Fin 2048) : EReal :=
  if h : col.val < 1024 then x0 (ix3 (0 : Fin 1) r ⟨col.val, h⟩)
  else context (fun c => x0 (ix3 (0 : Fin 1) r c)) (fun e c => x1 (ix3 (0 : Fin 1) e c))
    ⟨col.val - 1024, by have := col.isLt; omega⟩

/-- A block's result is the restriction of the whole array's: if row `r` of the decoder block is row `t` of batch
    entry `b`, and the encoder block is batch entry `b`'s encoder rows, the two agree in every column. -/
theorem blkAt_eq_outAt (enc dec : Arr) (x0 : QBlk) (x1 : KBlk) (b : Fin 16) (t : Fin 1024) (r : Fin 512)
    (h0 : ∀ c : Fin 1024, x0 (ix3 (0 : Fin 1) r c) = dec (ix3 b t c))
    (h1 : ∀ (e c : Fin 1024), x1 (ix3 (0 : Fin 1) e c) = enc (ix3 b e c)) (col col' : Fin 2048) (hc : col.val = col'.val) :
    blkAt x0 x1 r col = outAt enc dec b t col' := by
  obtain rfl : col = col' := Fin.ext hc
  unfold blkAt outAt
  split
  · exact h0 _
  · rw [show (fun c => x0 (ix3 (0 : Fin 1) r c)) = fun c => dec (ix3 b t c) from funext h0,
      show (fun e c => x1 (ix3 (0 : Fin 1) e c)) = fun e c => enc (ix3 b e c) from funext fun e => funext (h1 e)]

/-- In the left half (column `d` below 1024) a block's result is the decoder block's own entry. -/
theorem blkAt_left (x0 : QBlk) (x1 : KBlk) (r' r : Fin 512) (col : Fin 2048) (d : Fin 1024) (hr : r'.val = r.val)
    (h : col.val = d.val) : blkAt x0 x1 r' col = x0 (ix3 (0 : Fin 1) r d) := by
  obtain rfl : r' = r := Fin.ext hr
  have hd := d.isLt
  unfold blkAt
  rw [dif_pos (by omega)]
  exact congrArg (fun z => x0 (ix3 (0 : Fin 1) r' z)) (Fin.ext h)

/-- In the right half (column 1024 + `d`) it is entry `d` of the row's context vector. -/
theorem blkAt_right (x0 : QBlk) (x1 : KBlk) (r' r : Fin 512) (col : Fin 2048) (d : Fin 1024) (hr : r'.val = r.val)
    (h : col.val = 1024 + d.val) :
    blkAt x0 x1 r' col = context (fun c => x0 (ix3 (0 : Fin 1) r c)) (fun e c => x1 (ix3 (0 : Fin 1) e c)) d := by
  obtain rfl : r' = r := Fin.ext hr
  unfold blkAt
  rw [dif_neg (by omega)]
  exact congrArg (context _ _) (Fin.ext (by show col.val - 1024 = d.val; omega))

/-- A maximum folded from a start value is at least the start value, so taking the maximum with it again changes
    nothing. -/
theorem max_fold_max_self (a : EReal) (σ : Fin 1024 → EReal) :
    max a ((Finset.univ : Finset (Fin 1024)).fold max a σ) = (Finset.univ : Finset (Fin 1024)).fold max a σ :=
  max_eq_right ((Finset.le_fold_max a).mpr (Or.inl le_rfl))

end Cert.Attn

end
-- ==== Proof.LibMatmulRows.lean ====
/-
  A general reading lemma: at the ideal values, a matrix product that contracts the LAST axis of both operands
  (a product with the second operand transposed, [m, k] · [n, k]ᵀ), accumulated into the zero splat, read at an
  index, is the sum over the contracted coordinate of the products of the two rows' entries.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibMatmulRows

/-- A `tpu.matmul` of an [m, k] operand with an [n, k] operand, contracting axis 1 of both, into the f32 zero splat,
    read at (a, b) at the ideal values: the sum over `c : Fin k` of the first operand at (a, c) times the second at
    (b, c) — for any extents and operand formats. `w` is the record's well-formedness, which a program states. -/
theorem matmul_rows_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B (constant (F := Ideal) ⟨2, ![m, n]⟩ .f32 0x00000000#32) (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulRows

end
-- ==== Proof.LibPlainMatmul.lean ====
/-
  A matrix product read at an index given by coordinates, at the ideal values, for any extents and element formats:
  for the plain dimension numbers — an `M × K` left operand and a `K × N` right operand contracted over the left's
  columns and the right's rows, no batch axis — the product accumulated into zero is, at `(i, j)`,
  the sum over `k` of `l (i, k) · r (k, j)`. The sum over the contraction shape's one-coordinate indices is
  re-indexed over `Fin K`.
-/
import Idealize.ShloMosaic.Lib.ValueIdx
import Idealize.ShloMosaic.PureOps.Ideal.Laws

namespace Cert.LibPlainMatmul

open Idealize.ShloMosaic Idealize.ShloMosaic.ValueIdx

/-- The product of an `M × K` and a `K × N` matrix into a zero accumulator, read at `(i, j)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        split
        · exact absurd ‹_› List.not_mem_nil
        · split
          · rfl
          · exact absurd (List.mem_singleton.mpr rfl) ‹_›)
  rw [el, er]

end Cert.LibPlainMatmul
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.KernelRow.lean ====
/-
  The kernel body's arithmetic, read entry by entry at the ideal values.

  The body takes a block `q` of 512 decoder rows and the 1024 encoder rows `k` of the same batch entry and
  computes, stage by stage: the scores `s = q · kᵀ` (a product contracting the last axis of both), the row
  maxima (kept as a column and spread back over the row), the weights `exp (s − max)`, the row sums (again kept
  as a column), the probabilities `weights / sums`, and the context rows `probabilities · k`.  Narrowing to
  bf16 changes nothing on the extended reals.  Each stage is read at an entry from the stage before, so that
  row `r` of the result is the context vector of row `r` of `q` against the rows of `k`.
-/
import proofs.«104280_j1443109011680_2_alg».proof.Proof.Gen.KernelIdeal.Skeleton
import proofs.«104280_j1443109011680_2_alg».proof.Proof.Spec
import proofs.«104280_j1443109011680_2_alg».proof.Proof.LibMatmulRows
import proofs.«104280_j1443109011680_2_alg».proof.Proof.LibPlainMatmul
import proofs.«104280_j1443109011680_2_alg».proof.Proof.LibKeepdimsCol
import Idealize.ShloMosaic.Lib.ValueLayout
import Idealize.ShloMosaic.Lib.ValueIdx
import Idealize.ShloMosaic.PureOps.Ideal.Laws

noncomputable section

namespace Cert.Attn.KernelRow

open Idealize.ShloMosaic Idealize.ShloMosaic.ValueIdx Cert.KernelIdeal Cert.KernelIdeal.Gen Cert.Attn

/-! ## The stages -/

/-- The scores: the product of the decoder block with the transposed encoder rows. -/
def scores (q : FVec Ideal S512x1024 .f32) (k : FVec Ideal S1024x1024 .f32) : FVec Ideal S512x1024 .f32 :=
  matmul dot_S512x1024_S1024x1024_S512x1024_1_1_0_0_n_n (some .fp32) q k (constant S512x1024 .f32 0x00000000#32)

/-- Each row's maximum, spread back over the row. -/
def rowMaxMat (s : FVec Ideal S512x1024 .f32) : FVec Ideal S512x1024 .f32 :=
  broadcastTo S512x1024 (shapeCast S512x1 (multiReduction .maximumf [1] S512 s 0xFF800000#32 reduces_S512x1024_S512 (.inl rfl) rfl)
    shapeCasts_S512_S512x1) broadcasts_S512x1_S512x1024

/-- The weights `exp (s − row maximum)`. -/
def weights (s : FVec Ideal S512x1024 .f32) : FVec Ideal S512x1024 .f32 := exp (subf s (rowMaxMat s))

/-- Each row's sum, spread back over the row. -/
def rowSumMat (w : FVec Ideal S512x1024 .f32) : FVec Ideal S512x1024 .f32 :=
  broadcastTo S512x1024 (shapeCast S512x1 (multiReduction .add [1] S512 w 0x00000000#32 reduces_S512x1024_S512 (.inl rfl) rfl)
    shapeCasts_S512_S512x1) broadcasts_S512x1_S512x1024

/-- The probabilities. -/
def probs (s : FVec Ideal S512x1024 .f32) : FVec Ideal S512x1024 .f32 := divf (weights s) (rowSumMat (weights s))

/-- The context rows: the probabilities times the encoder rows, both narrowed to bf16 first. -/
def ctxMat (q : FVec Ideal S512x1024 .f32) (k : FVec Ideal S1024x1024 .f32) : FVec Ideal S512x1024 .f32 :=
  matmul dot_S512x1024_S1024x1024_S512x1024_1_0_0_1_n_n none (truncf .bf16 (probs (scores q k)) bitsLt_bf16_f32)
    (truncf .bf16 k bitsLt_bf16_f32) (constant S512x1024 .f32 0x00000000#32)

/-- The body's second stored value is the context rows of its two loaded blocks with the leading unit axis dropped,
    the unit axis put back. -/
theorem pay3_eq (x0 : Vec Ideal S1x512x1024 .f32) (x2 : Vec Ideal S1x1024x1024 .f32) :
    k0_pay3 x0 x2 = shapeCast S1x512x1024
      (ctxMat (shapeCast S512x1024 x0 shapeCasts_S1x512x1024_S512x1024) (shapeCast S1024x1024 x2 shapeCasts_S1x1024x1024_S1024x1024))
      shapeCasts_S512x1024_S1x512x1024 := rfl

/-- The body's first stored value is its loaded decoder block, the unit axis dropped and put back. -/
theorem pay2_eq (x0 : Vec Ideal S1x512x1024 .f32) :
    k0_pay2 x0 = shapeCast S1x512x1024 (shapeCast S512x1024 x0 shapeCasts_S1x512x1024_S512x1024) shapeCasts_S512x1024_S1x512x1024 := rfl

/-! ## Each stage at an entry -/

/-- Row `r` with column coordinate `k` put back on the reduced axis is the entry (r, k). -/
theorem lift_row (h : S512x1024.Reduces [1] S512) (r : Fin 512) (k : Fin (S512x1024.size 1)) :
    h.lift (ix1 r) k = ix2 r (⟨k.val, k.isLt⟩ : Fin 1024) := by
  funext c; apply Fin.ext
  match c with
  | ⟨0, _⟩ => rfl
  | ⟨1, _⟩ => rfl

/-- A score is the sum over the feature coordinate of the products of a decoder row's and an encoder row's entries. -/
theorem scores_apply (q : FVec Ideal S512x1024 .f32) (k : FVec Ideal S1024x1024 .f32) (r : Fin 512) (e : Fin 1024) :
    scores q k (ix2 r e) = ∑ c : Fin 1024, q (ix2 r c) * k (ix2 e c) :=
  LibMatmulRows.matmul_rows_apply dot_S512x1024_S1024x1024_S512x1024_1_1_0_0_n_n_wf (some .fp32) q k r e

/-- A vector of row statistics kept as a column and spread over the rows reads, anywhere in row `r`, entry `r`. -/
theorem keepCol_apply (v : FVec Ideal S512 .f32) (hc : S512.ShapeCasts S512x1) (hb : S512x1.Broadcasts S512x1024)
    (r : Fin 512) (e : Fin 1024) :
    broadcastTo S512x1024 (shapeCast S512x1 v hc) hb (ix2 r e) = v (ix1 r) :=
  (LibKeepdimsCol.broadcastTo_a1_ab_apply _ hb r e).trans (LibKeepdimsCol.shapeCast_a_a1_apply v hc r (0 : Fin 1))

/-- The row maximum, anywhere in row `r`, is the maximum of that row's entries folded from −∞. -/
theorem rowMaxMat_apply (s : FVec Ideal S512x1024 .f32) (r : Fin 512) (e : Fin 1024) :
    rowMaxMat s (ix2 r e) = smMax (fun e' => s (ix2 r e')) := by
  unfold rowMaxMat
  refine (keepCol_apply _ _ _ r e).trans ?_
  refine (Ideal.multiReduction_maximumf_single s _ reduces_S512x1024_S512 (.inl rfl) rfl (ix1 r)).trans ?_
  unfold smMax
  show Finset.fold max (Ideal.ofBits .f32 0xFF800000#32) (s ∘ reduces_S512x1024_S512.lift (ix1 r)) (Finset.univ : Finset (Fin 1024)) = _
  exact congrArg (fun f => Finset.fold max negInf f (Finset.univ : Finset (Fin 1024)))
    (funext fun k => congrArg s (lift_row reduces_S512x1024_S512 r k))

/-- A weight is the exponential of the score less its row's maximum. -/
theorem weights_apply (s : FVec Ideal S512x1024 .f32) (r : Fin 512) (e : Fin 1024) :
    weights s (ix2 r e) = smWeight (fun e' => s (ix2 r e')) e := by
  show Ideal.exp (s (ix2 r e) - rowMaxMat s (ix2 r e)) = _
  rw [rowMaxMat_apply]
  rfl

/-- The row sum, anywhere in row `r`, is the sum of that row's entries. -/
theorem rowSumMat_apply (w : FVec Ideal S512x1024 .f32) (r : Fin 512) (e : Fin 1024) :
    rowSumMat w (ix2 r e) = ∑ e' : Fin 1024, w (ix2 r e') := by
  unfold rowSumMat
  refine (keepCol_apply _ _ _ r e).trans ?_
  refine (Ideal.multiReduction_add_single w _ reduces_S512x1024_S512 (.inl rfl) rfl (ix1 r)).trans ?_
  show ∑ k : Fin 1024, w (reduces_S512x1024_S512.lift (ix1 r) k) = _
  exact Finset.sum_congr rfl fun k _ => congrArg w (lift_row reduces_S512x1024_S512 r k)

/-- A probability is the weight over its row's sum of weights. -/
theorem probs_apply (s : FVec Ideal S512x1024 .f32) (r : Fin 512) (e : Fin 1024) :
    probs s (ix2 r e) = smProb (fun e' => s (ix2 r e')) e := by
  show Ideal.div (weights s (ix2 r e)) (rowSumMat (weights s) (ix2 r e)) = _
  rw [rowSumMat_apply, weights_apply]
  unfold smProb smNorm
  exact congrArg (Ideal.div _) (Finset.sum_congr rfl fun e' _ => weights_apply s r e')

/-- A context entry is the probabilities' weighted sum down a column of the encoder rows. -/
theorem ctxMat_apply (q : FVec Ideal S512x1024 .f32) (k : FVec Ideal S1024x1024 .f32) (r : Fin 512) (d : Fin 1024) :
    ctxMat q k (ix2 r d) = context (fun c => q (ix2 r c)) (fun e c => k (ix2 e c)) d := by
  unfold ctxMat
  refine (LibPlainMatmul.matmul_zero_apply dot_S512x1024_S1024x1024_S512x1024_1_0_0_1_n_n rfl rfl rfl rfl rfl rfl none _ _ r d).trans ?_
  unfold context
  refine Finset.sum_congr rfl fun e _ => ?_
  show probs (scores q k) (ix2 r e) * k (ix2 e d) = _
  rw [probs_apply]
  exact congrArg (fun σ => smProb σ e * k (ix2 e d)) (funext fun e' => scores_apply q k r e')

/-! ## The two stored values at an entry of the block -/

/-- The right half's stored value at (u, r, d): the context vector of row `r` of the decoder block against the
    encoder block's rows. -/
theorem pay3_apply (x0 : Vec Ideal S1x512x1024 .f32) (x2 : Vec Ideal S1x1024x1024 .f32) (u : Fin 1) (r : Fin 512) (d : Fin 1024) :
    k0_pay3 x0 x2 (ix3 u r d)
      = context (fun c => x0 (ix3 (0 : Fin 1) r c)) (fun e c => x2 (ix3 (0 : Fin 1) e c)) d := by
  rw [pay3_eq]
  refine (shapeCast_ab_1ab_apply _ _ u r d).trans ?_
  rw [ctxMat_apply]
  exact congrArg₂ (fun a b => context a b d)
    (funext fun c => shapeCast_1ab_ab_apply x0 _ r c)
    (funext fun e => funext fun c => shapeCast_1ab_ab_apply x2 _ e c)

/-- The left half's stored value at (u, r, d): the decoder block's entry (0, r, d). -/
theorem pay2_apply (x0 : Vec Ideal S1x512x1024 .f32) (u : Fin 1) (r : Fin 512) (d : Fin 1024) :
    k0_pay2 x0 (ix3 u r d) = x0 (ix3 (0 : Fin 1) r d) := by
  rw [pay2_eq]
  exact (shapeCast_ab_1ab_apply _ _ u r d).trans (shapeCast_1ab_ab_apply x0 _ r d)

end Cert.Attn.KernelRow

end
-- ==== Proof.KernelArr.lean ====
/-
  From the kernel's blocks to its whole result array.

  The grid has a point per batch entry `b` and half `h` of the decoder positions.  At that point the body reads
  the block of decoder rows [b, 512·h … 512·h + 511, ·] and the encoder rows [b, ·, ·], and writes the block
  [b, 512·h … 512·h + 511, ·] of the result: its left half the decoder block itself, its right half the rows'
  context vectors.  Both stored pieces are restrictions of one function of the block, that function is the
  restriction of `Attn.G` of the two argument arrays to the block, and the 32 blocks tile the array; so the
  array ends holding `Attn.G`.
-/
import proofs.«104280_j1443109011680_2_alg».proof.Proof.Gen.KernelIdeal.Value
import proofs.«104280_j1443109011680_2_alg».proof.Proof.KernelRow
import Idealize.ShloMosaic.Lib.Pipeline.Value

set_option maxRecDepth 16384

noncomputable section

namespace Cert.Attn.KernelArr

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- What the body leaves in the output block, entry by entry: both stored pieces are pieces of one function of the
    two input blocks. -/
theorem out_apply (x0 : Vec Ideal S1x512x1024 .f32) (x1 : Vec Ideal S1x1024x1024 .f32) (y : S1x512x2048.Idx) :
    out0_2 (F := Ideal) x0 x1 y = blkAt x0 x1 (⟨(y 1).val, (y 1).isLt⟩ : Fin 512) (⟨(y 2).val, (y 2).isLt⟩ : Fin 2048) := by
  unfold out0_2
  simp only [View.ld_unit_zero (S := S1x512x1024) hz3, View.ld_unit_zero (S := S1x1024x1024) hz3]
  refine View.canon_apply_of_pieces (Val := Elt Ideal) (S := S1x512x2048) (e := .f32)
    (fun y : S1x512x2048.Idx => blkAt x0 x1 (⟨(y 1).val, (y 1).isLt⟩ : Fin 512) (⟨(y 2).val, (y 2).isLt⟩ : Fin 2048))
    _ ?_ y (cover0_2 _ _ y)
  intro p hp x
  rcases List.mem_cons.mp hp with rfl | hp
  · obtain ⟨u, r, d, rfl⟩ : ∃ (u : Fin 1) (r : Fin 512) (d : Fin 1024), x = ix3 u r d := ⟨x 0, x 1, x 2, eq_ix3 x⟩
    refine (KernelRow.pay3_apply x0 x1 u r d).trans (blkAt_right x0 x1 _ r _ d ?_ ?_).symm
    · show 0 + 1 * r.val = r.val; omega
    · show 1024 + 1 * d.val = 1024 + d.val; omega
  · obtain rfl := List.mem_singleton.mp hp
    obtain ⟨u, r, d, rfl⟩ : ∃ (u : Fin 1) (r : Fin 512) (d : Fin 1024), x = ix3 u r d := ⟨x 0, x 1, x 2, eq_ix3 x⟩
    refine (KernelRow.pay2_apply x0 u r d).trans (blkAt_left x0 x1 _ r _ d ?_ ?_).symm
    · show 0 + 1 * r.val = r.val; omega
    · show 0 + 1 * d.val = d.val; omega

/-- The printed index maps, decided over the grid: the decoder window moves with the output window, the encoder
    window follows its batch coordinate only, and the output's block indices range over 16 × 2 × 1. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 15 ∧ win0_2.index t (1 : Fin 3) ≤ 1 ∧ win0_2.index t (2 : Fin 3) = 0 :=
  (by decide +kernel : ∀ t : Fin grid0.N, _)

/-- Every (batch entry, half) is some point's output block. -/
theorem idx_onto : ∀ (q0 : Fin 16) (q1 : Fin 2), ∃ t : Fin cfg0.N, win0_2.index t = ![q0.val, q1.val, 0] :=
  (by decide +kernel : ∀ (q0 : Fin 16) (q1 : Fin 2), ∃ t : Fin grid0.N, win0_2.index t = ![q0.val, q1.val, 0])

/-- What point `t` writes back is block `t` of `G` of the argument arrays. -/
theorem flushed_eq (c : Dev nD) (t : Fin cfg0.N) :
    (dats m 0 c).flushed 2 t = ((cfg0.win 2).blk t).view.read (Elt Ideal) (G (V m c main_arg0) (V m c main_arg1)) := by
  rw [Value.flushed2]
  obtain ⟨e0, e1, e2, e3, e4, e5, e6, e7, e8⟩ := idx_facts t
  funext j
  show out0_2 (iblk m c 0 t) (iblk m c 1 t) j = G (V m c main_arg0) (V m c main_arg1) (((cfg0.win 2).blk t).view.emb j)
  refine (out_apply (iblk m c 0 t) (iblk m c 1 t) j).trans ?_
  have hj0 : (j 0).val < 1 := (j 0).isLt
  have hj1 : (j 1).val < 512 := (j 1).isLt
  have hj2 : (j 2).val < 2048 := (j 2).isLt
  refine blkAt_eq_outAt (V m c main_arg0) (V m c main_arg1) (iblk m c 0 t) (iblk m c 1 t) _ _ _ ?_ ?_ _ _ ?_
  · intro cc
    show V m c main_arg1 (((cfg0.win 0).blk t).view.emb (ix3 (0 : Fin 1) (⟨(j 1).val, (j 1).isLt⟩ : Fin 512) cc)) = V m c main_arg1 _
    refine congrArg (V m c main_arg1) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 1024 + 1 * cc.val = cc.val; omega
  · intro e cc
    show V m c main_arg0 (((cfg0.win 1).blk t).view.emb (ix3 (0 : Fin 1) e cc)) = V m c main_arg0 _
    refine congrArg (V m c main_arg0) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 1024 + 1 * e.val = e.val; omega
    | ⟨2, _⟩ => show win0_1.index t (2 : Fin 3) * 1024 + 1 * cc.val = cc.val; omega
  · show (j 2).val = win0_2.index t (2 : Fin 3) * 2048 + 1 * (j 2).val; omega

/-- An index of the array is in point `t`'s block iff each coordinate is in the block's range on its axis. -/
theorem mem_blk (t : Fin cfg0.N) (i : S16x1024x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v0).slice (win0_2.rect t)).set ↔ _
  rw [View.set_slice_whole, Rect.mem_set_unit]
  exact Iff.rfl

/-- The blocks tile the array: entry (b, t, ·) is in the block of the point for batch entry `b` and half `t / 512`. -/
theorem cover (i : S16x1024x2048.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 2048 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- The result array after the run is `G` of the argument arrays as launched. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run: the result array ends at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Attn.KernelArr

end
-- ==== Proof.RefRow.lean ====
/-
  The reference program's result, read entry by entry at the ideal values, is the specification `Attn.G`.

  The reference forms all scores `enc[b, e, ·] · dec[b, t, ·]` at once (laid out [b, e, t]), takes the maximum over
  the encoder position `e` from −∞ (and once more against a −∞ splat, which changes nothing), the exponentials of
  the differences, their sums over `e`, the quotients, contracts the quotients with the encoder rows over `e`, and
  joins the decoder array and the contexts along the last axis.  Read at (b, t, ·) every stage is the matching
  stage of the softmax attention of the decoder row (b, t) against the encoder rows of batch entry `b`; a score's
  product is taken in the other order, which on the extended reals is the same number.
-/
import proofs.«104280_j1443109011680_2_alg».proof.Proof.Gen.ReferenceIdeal.Read
import proofs.«104280_j1443109011680_2_alg».proof.Proof.Spec
import Idealize.ShloMosaic.Lib.Pipeline.Value
import Idealize.ShloMosaic.Lib.ValueIdx
import Idealize.ShloMosaic.PureOps.Ideal.Laws

noncomputable section

namespace Cert.Attn.RefRow

open Idealize.ShloMosaic Idealize.ShloMosaic.ValueIdx Cert.ReferenceIdeal Cert.ReferenceIdeal.Gen Cert.ReferenceIdeal.Read Cert.Attn

variable (x0 x1 : (⟨S16x1024x1024, .f32⟩ : BufTy).Contents (Elt Ideal))

/-- The scores of decoder row (b, t) against the encoder rows of batch entry `b`. -/
abbrev σ (b : Fin 16) (t : Fin 1024) : Fin 1024 → EReal :=
  score (fun c => x1 (ix3 b t c)) (fun e c => x0 (ix3 b e c))

/-- Entry (b, t) of the reduced array with coordinate `k` put back on the middle axis is (b, k, t). -/
theorem lift_mid (h : S16x1024x1024.Reduces [1] S16x1024) (b : Fin 16) (t : Fin 1024) (k : Fin (S16x1024x1024.size 1)) :
    h.lift (ix2 b t) k = ix3 b (⟨k.val, k.isLt⟩ : Fin 1024) t := by
  funext c; apply Fin.ext
  match c with
  | ⟨0, _⟩ => rfl
  | ⟨1, _⟩ => rfl
  | ⟨2, _⟩ => rfl

/-- The score array at (b, e, t). -/
theorem v0_at (b : Fin 16) (e t : Fin 1024) : val_main_v0 (F := Ideal) x0 x1 (ix3 b e t) = σ x0 x1 b t e := by
  rw [val_main_v0_apply]
  show _ = ∑ c : Fin 1024, x1 (ix3 b t c) * x0 (ix3 b e c)
  refine Finset.sum_congr rfl fun k _ => ?_
  have el : lidx_main_v0 (ix3 b e t) k = ix3 b e k := funext fun a => Fin.ext (by
    match a with
    | ⟨0, _⟩ => rfl
    | ⟨1, _⟩ => rfl
    | ⟨2, _⟩ => rfl)
  have er : ridx_main_v0 (ix3 b e t) k = ix3 b t k := funext fun a => Fin.ext (by
    match a with
    | ⟨0, _⟩ => rfl
    | ⟨1, _⟩ => rfl
    | ⟨2, _⟩ => rfl)
  rw [el, er, mul_comm]

/-- The maximum over the encoder position at (b, t). -/
theorem v1_at (b : Fin 16) (t : Fin 1024) : val_main_v1 (F := Ideal) x0 x1 (ix2 b t) = smMax (σ x0 x1 b t) := by
  unfold val_main_v1
  have hR : S16x1024x1024.Reduces [1] S16x1024 := by decide
  refine (Host.reduce_eq_fold_single (FloatOps.maximumf (F := Ideal) (φ := .f32)) (val_main_v0 (F := Ideal) x0 x1) (val_main_cst (F := Ideal))
    reducesTo_S16x1024x1024_S16x1024_d1 hR h_S_ (ix2 b t)).trans ?_
  unfold smMax
  show Finset.fold max (Ideal.ofBits .f32 0xFF800000#32) (val_main_v0 (F := Ideal) x0 x1 ∘ hR.lift (ix2 b t))
    (Finset.univ : Finset (Fin 1024)) = _
  exact congrArg (fun f => Finset.fold max negInf f (Finset.univ : Finset (Fin 1024)))
    (funext fun k => (congrArg (val_main_v0 (F := Ideal) x0 x1) (lift_mid hR b t k)).trans (v0_at x0 x1 b _ t))

/-- Taking the maximum with the −∞ splat once more leaves it. -/
theorem v3_at (b : Fin 16) (t : Fin 1024) : val_main_v3 (F := Ideal) x0 x1 (ix2 b t) = smMax (σ x0 x1 b t) := by
  rw [val_main_v3_apply, val_main_v2_apply, val_main_cst_0_apply, v1_at]
  show max negInf (smMax (σ x0 x1 b t)) = smMax (σ x0 x1 b t)
  unfold smMax
  exact max_fold_max_self _ _

/-- The maximum spread back over the encoder position. -/
theorem v5_at (b : Fin 16) (e t : Fin 1024) : val_main_v5 (F := Ideal) x0 x1 (ix3 b e t) = smMax (σ x0 x1 b t) := by
  rw [val_main_v5_apply, val_main_v4_apply,
    show idx_main_v4 (idx_main_v5 (ix3 b e t)) = ix2 b t from funext fun a => Fin.ext (by
      match a with
      | ⟨0, _⟩ => rfl
      | ⟨1, _⟩ => rfl)]
  exact v3_at x0 x1 b t

/-- The weights at (b, e, t). -/
theorem v7_at (b : Fin 16) (e t : Fin 1024) : val_main_v7 (F := Ideal) x0 x1 (ix3 b e t) = smWeight (σ x0 x1 b t) e := by
  rw [val_main_v7_apply, val_main_v6_apply, v0_at, v5_at]
  rfl

/-- The sum of the weights over the encoder position at (b, t). -/
theorem v8_at (b : Fin 16) (t : Fin 1024) : val_main_v8 (F := Ideal) x0 x1 (ix2 b t) = smNorm (σ x0 x1 b t) := by
  rw [val_main_v8_apply]
  show Ideal.ofBits .f32 0x00000000#32 + _ = _
  rw [Ideal.ofBits_zero_f32, zero_add]
  unfold smNorm
  refine Finset.sum_congr rfl fun k _ => ?_
  rw [show idx_main_v8 (ix2 b t) k = ix3 b k t from funext fun a => Fin.ext (by
    match a with
    | ⟨0, _⟩ => rfl
    | ⟨1, _⟩ => rfl
    | ⟨2, _⟩ => rfl)]
  exact v7_at x0 x1 b k t

/-- The sum spread back over the encoder position. -/
theorem v10_at (b : Fin 16) (e t : Fin 1024) : val_main_v10 (F := Ideal) x0 x1 (ix3 b e t) = smNorm (σ x0 x1 b t) := by
  rw [val_main_v10_apply, val_main_v9_apply,
    show idx_main_v9 (idx_main_v10 (ix3 b e t)) = ix2 b t from funext fun a => Fin.ext (by
      match a with
      | ⟨0, _⟩ => rfl
      | ⟨1, _⟩ => rfl)]
  exact v8_at x0 x1 b t

/-- The probabilities at (b, e, t). -/
theorem v11_at (b : Fin 16) (e t : Fin 1024) : val_main_v11 (F := Ideal) x0 x1 (ix3 b e t) = smProb (σ x0 x1 b t) e := by
  rw [val_main_v11_apply, v7_at, v10_at]
  rfl

/-- The contexts at (b, t, d). -/
theorem v12_at (b : Fin 16) (t d : Fin 1024) :
    val_main_v12 (F := Ideal) x0 x1 (ix3 b t d) = context (fun c => x1 (ix3 b t c)) (fun e c => x0 (ix3 b e c)) d := by
  rw [val_main_v12_apply]
  unfold context
  refine Finset.sum_congr rfl fun k _ => ?_
  rw [show lidx_main_v12 (ix3 b t d) k = ix3 b k t from funext fun a => Fin.ext (by
      match a with
      | ⟨0, _⟩ => rfl
      | ⟨1, _⟩ => rfl
      | ⟨2, _⟩ => rfl),
    show ridx_main_v12 (ix3 b t d) k = ix3 b k d from funext fun a => Fin.ext (by
      match a with
      | ⟨0, _⟩ => rfl
      | ⟨1, _⟩ => rfl
      | ⟨2, _⟩ => rfl),
    v11_at]

/-- The reference's result is the specification: the left half of the joined array is the decoder array, the right
    half the contexts. -/
theorem ref_eq_G : val_main_v13 (F := Ideal) x0 x1 = G x0 x1 := by
  funext i
  obtain ⟨b, t, col, rfl⟩ : ∃ (b : Fin 16) (t : Fin 1024) (col : Fin 2048), i = ix3 b t col := ⟨i 0, i 1, i 2, eq_ix3 i⟩
  show val_main_v13 (F := Ideal) x0 x1 (ix3 b t col) = outAt x0 x1 b t col
  unfold val_main_v13 outAt
  split
  · next h =>
    exact concatenate_pair_apply_left 2 x1 _ concatenates_S16x1024x1024_S16x1024x1024_S16x1024x2048_d2 (ix3 b t col) rfl
      (ix3 b t (⟨col.val, h⟩ : Fin 1024)) (fun a => by
        match a with
        | ⟨0, _⟩ => rfl
        | ⟨1, _⟩ => rfl
        | ⟨2, _⟩ => rfl)
  · next h =>
    refine (concatenate_pair_apply_right 2 x1 (val_main_v12 (F := Ideal) x0 x1)
      concatenates_S16x1024x1024_S16x1024x1024_S16x1024x2048_d2 (ix3 b t col) rfl rfl
      (ix3 b t (⟨col.val - 1024, by have := col.isLt; omega⟩ : Fin 1024)) (fun a ha => by
        match a with
        | ⟨0, _⟩ => rfl
        | ⟨1, _⟩ => rfl
        | ⟨2, _⟩ => exact absurd rfl ha)
      (by show col.val - 1024 + 1024 = col.val; omega)).trans ?_
    exact v12_at x0 x1 b t _

end Cert.Attn.RefRow

end
-- ==== Proof.lean ====
/-
  Dot-product attention of decoder rows against encoder rows (the keys doubling as values), the decoder row joined
  with its context vector: the kernel against its array-level reference, at the ideal values.

  Both programs compute, for batch entry `b` and decoder position `t`, the scores `Σ_c dec[b,t,c] · enc[b,e,c]`
  over the encoder positions `e`, their softmax (maximum from −∞, exponentials of the differences, the quotient
  by their sum) and the probabilities' weighted sum of the encoder rows, and put it to the right of the decoder row.
  The kernel does so for 512 decoder rows of one batch entry at a time, the reference for all at once; the reference
  multiplies a score's two factors in the other order and takes the maximum against −∞ once more.  On the extended
  reals these are the same numbers: multiplication commutes, and a maximum folded from −∞ is not below −∞.  No step
  needs the inputs to be finite.

  `Attn.G` (Proof/Spec.lean) is the result array as one function of the two argument arrays.  The kernel's result
  array ends at `G` (Proof/KernelArr.lean, over the generated blockwise value leg and the body's stages read at an
  entry, Proof/KernelRow.lean); the reference's result is `G` (Proof/RefRow.lean, over the generated run and its
  stage-by-stage reading).  The frames are the generated ones; the idealization rewrote nothing.
-/
import proofs.«104280_j1443109011680_2_alg».proof.Defs
import proofs.«104280_j1443109011680_2_alg».proof.Proof.Gen.Kernel
import proofs.«104280_j1443109011680_2_alg».proof.Proof.Gen.Kernel.Skeleton
import proofs.«104280_j1443109011680_2_alg».proof.Proof.Gen.Kernel.Launch
import proofs.«104280_j1443109011680_2_alg».proof.Proof.Gen.Kernel.Points
import proofs.«104280_j1443109011680_2_alg».proof.Proof.Gen.Kernel.Frame
import proofs.«104280_j1443109011680_2_alg».proof.Proof.Gen.KernelIdeal
import proofs.«104280_j1443109011680_2_alg».proof.Proof.Gen.KernelIdeal.Skeleton
import proofs.«104280_j1443109011680_2_alg».proof.Proof.Gen.KernelIdeal.Launch
import proofs.«104280_j1443109011680_2_alg».proof.Proof.Gen.KernelIdeal.Points
import proofs.«104280_j1443109011680_2_alg».proof.Proof.Gen.KernelIdeal.Frame
import proofs.«104280_j1443109011680_2_alg».proof.Proof.Gen.ReferenceIdeal
import proofs.«104280_j1443109011680_2_alg».proof.Proof.Gen.Pre_finite_inputs
import proofs.«104280_j1443109011680_2_alg».proof.Proof.Gen.KernelIdeal.Value
import proofs.«104280_j1443109011680_2_alg».proof.Proof.Gen.ReferenceIdeal.Run
import proofs.«104280_j1443109011680_2_alg».proof.Proof.Gen.ReferenceIdeal.Read
import proofs.«104280_j1443109011680_2_alg».proof.Proof.KernelArr
import proofs.«104280_j1443109011680_2_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `Attn.G` of the arguments. -/
theorem algebraic : Cert.algebraic_KernelIdeal_ReferenceIdeal := by
  intro m ρ m' ρ' _ hagree
  refine ⟨_, Cert.Attn.KernelArr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Attn.RefRow.ref_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
